-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x8192 : Shape := ⟨3, ![8, 1, 8192]⟩
abbrev S8192x8192 : Shape := ⟨2, ![8192, 8192]⟩
abbrev S_ : Shape := ⟨0, ![]⟩

class Facts : Prop where
  bcast_S_S8x1x8192 : S_.BroadcastsInDim S8x1x8192 (![] : Fin 0 → Fin S8x1x8192.rank)
  reducesTo_S8x1x8192_S_d0_1_2 : S8x1x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8x1x8192 1) : IVec S_ 1 :=
  let main_c_5 : IVec S_ 1 := constantI S_ 1 1#1
  let main_v17 : IVec S_ 1 := (fun x v => Host.reduce IntOp.andi x v reducesTo_S8x1x8192_S_d0_1_2 h_S_) main_v16 main_c_5
  let main_v18 : IVec S_ 1 := andi main_v13 main_v17
  main_v18

def fn {F : FTy → Type} [FloatOps F] (main_arg0 : FVec F S8x1x8192 .f32) (main_arg1 : FVec F S8192x8192 .f32) (main_arg2 : FVec F S8x1x8192 .f32) (main_arg3 : FVec F S8x1x8192 .f32) : IVec S_ 1 :=
  let main_v0 : FVec F S8x1x8192 .f32 := Host.absf main_arg0
  let main_cst : FVec F S_ .f32 := constant S_ .f32 0x7F800000#32
  let main_v1 : FVec F S8x1x8192 .f32 := broadcastInDim S8x1x8192 ![] bcast_S_S8x1x8192 main_cst
  let main_v2 : IVec S8x1x8192 1 := cmpf .olt main_v0 main_v1
  let main_c : IVec S_ 1 := constantI S_ 1 1#1
  let main_v3 : IVec S_ 1 := (fun x v => Host.reduce IntOp.andi x v reducesTo_S8x1x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8x1x8192 .f32 := Host.absf main_arg2
  let main_cst_2 : FVec F S_ .f32 := constant S_ .f32 0x7F800000#32
  let main_v10 : FVec F S8x1x8192 .f32 := broadcastInDim S8x1x8192 ![] bcast_S_S8x1x8192 main_cst_2
  let main_v11 : IVec S8x1x8192 1 := cmpf .olt main_v9 main_v10
  let main_c_3 : IVec S_ 1 := constantI S_ 1 1#1
  let main_v12 : IVec S_ 1 := (fun x v => Host.reduce IntOp.andi x v reducesTo_S8x1x8192_S_d0_1_2 h_S_) main_v11 main_c_3
  let main_v13 : IVec S_ 1 := andi main_v8 main_v12
  let main_v14 : FVec F S8x1x8192 .f32 := Host.absf main_arg3
  let main_cst_4 : FVec F S_ .f32 := constant S_ .f32 0x7F800000#32
  let main_v15 : FVec F S8x1x8192 .f32 := broadcastInDim S8x1x8192 ![] bcast_S_S8x1x8192 main_cst_4
  let main_v16 : IVec S8x1x8192 1 := cmpf .olt main_v14 main_v15
  fn_part1 (F := F) main_v13 main_v16
-- ==== Kernel.lean ====
abbrev S8x1x8192 : Shape := ⟨3, ![8, 1, 8192]⟩
abbrev S8192x8192 : Shape := ⟨2, ![8192, 8192]⟩
abbrev S8x8192 : Shape := ⟨2, ![8, 8192]⟩
abbrev S8x1024 : Shape := ⟨2, ![8, 1024]⟩
abbrev S1024x4096 : Shape := ⟨2, ![1024, 4096]⟩
abbrev S8x4096 : Shape := ⟨2, ![8, 4096]⟩

abbrev nBuf : Space → Nat
  | .hbm => 9
  | .vmem => 10
  | .smem => 0
  | _ => 0

abbrev bufTy : (tb : Table) → Fin (tcTables nBuf tb) → BufTy
  | .hbm, ⟨0, _⟩ => ⟨S8x1x8192, .f32⟩
  | .hbm, ⟨1, _⟩ => ⟨S8192x8192, .f32⟩
  | .hbm, ⟨2, _⟩ => ⟨S8x1x8192, .f32⟩
  | .hbm, ⟨3, _⟩ => ⟨S8x1x8192, .f32⟩
  | .hbm, ⟨4, _⟩ => ⟨S8x8192, .f32⟩
  | .hbm, ⟨5, _⟩ => ⟨S8x8192, .f32⟩
  | .hbm, ⟨6, _⟩ => ⟨S8x8192, .f32⟩
  | .hbm, ⟨7, _⟩ => ⟨S8x8192, .f32⟩
  | .hbm, ⟨8, _⟩ => ⟨S8x1x8192, .f32⟩
  | .local _ .vmem, ⟨0, _⟩ => ⟨S8x1024, .f32⟩
  | .local _ .vmem, ⟨1, _⟩ => ⟨S8x1024, .f32⟩
  | .local _ .vmem, ⟨2, _⟩ => ⟨S1024x4096, .f32⟩
  | .local _ .vmem, ⟨3, _⟩ => ⟨S1024x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S8x4096, .f32⟩
  | _, _ => ⟨S8x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x1x8192_S8x8192 : S8x1x8192.ShapeCasts S8x8192
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x4096_S1024x4096_0_0 : ∀ a, (![0, 0] : Fin 2 → Nat) a + S1024x4096.size a ≤ S1024x4096.size a
  h_S1024x4096 : 0 < S1024x4096.numel
  shapeCasts_S8x8192_S8x1x8192 : S8x8192.ShapeCasts S8x1x8192
  dot_S8x1024_S1024x4096_S8x4096_1_0_0_1_n_n_wf : DotDims.WF S8x1024 S1024x4096 S8x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8x8192.size a
  hwx0_0 : ∀ i : grid0.Coords, EltTy.bits .f32 = 32 ∨ (Rect.block (s := S8x8192) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x8192.size a
  hwx0_1 : ∀ i : grid0.Coords, EltTy.bits .f32 = 32 ∨ (Rect.block (s := S8192x8192) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x8192.size a
  hwx0_2 : ∀ i : grid0.Coords, EltTy.bits .f32 = 32 ∨ (Rect.block (s := S8x8192) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x8192.size a
  hwx0_3 : ∀ i : grid0.Coords, EltTy.bits .f32 = 32 ∨ (Rect.block (s := S8x8192) S8x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x4096.size a ≤ S8x8192.size a
  hwx0_4 : ∀ i : grid0.Coords, EltTy.bits .f32 = 32 ∨ (Rect.block (s := S8x8192) S8x4096.size (cc0_transform_4 i) (hinb0_4 i)).WholeWords (EltTy.packing .f32)

variable [Facts₀]

def dot_S8x1024_S1024x4096_S8x4096_1_0_0_1_n_n : DotDims S8x1024 S1024x4096 S8x4096 where
  lhsContracting := [1]
  rhsContracting := [0]
  lhsNonContracting := [0]
  rhsNonContracting := [1]
  lhsBatch := []
  rhsBatch := []
  wf := dot_S8x1024_S1024x4096_S8x4096_1_0_0_1_n_n_wf

abbrev win0_0 : Pipeline.Window sig grid0 :=
  Pipeline.Window.ofSpec (Memref.whole main_v0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1x8192 : Shape := ⟨3, ![8, 1, 8192]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x1x8192, .f32⟩
  | .hbm, ⟨1, _⟩ => ⟨S8192x8192, .f32⟩
  | .hbm, ⟨2, _⟩ => ⟨S8x1x8192, .f32⟩
  | .hbm, ⟨3, _⟩ => ⟨S8x1x8192, .f32⟩
  | .hbm, ⟨4, _⟩ => ⟨S8x1x8192, .f32⟩
  | .hbm, ⟨5, _⟩ => ⟨S8x1x8192, .f32⟩
  | .hbm, ⟨6, _⟩ => ⟨S8x1x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x1x8192, .f32⟩
  | .hbm, ⟨11, _⟩ => ⟨S8x1x8192, .f32⟩
  | .hbm, ⟨12, _⟩ => ⟨S_, .f32⟩
  | .hbm, ⟨13, _⟩ => ⟨S8x1x8192, .f32⟩
  | .hbm, ⟨14, _⟩ => ⟨S8x1x8192, .f32⟩
  | _, _ => ⟨S8x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩

abbrev nD : Nat := 1
abbrev τ : Topo := Topo.v7x

variable {F : FTy → Type} [FloatOps F]

class Facts₀ : Prop where
  bcast_S_S8x1x8192 : S_.BroadcastsInDim S8x1x8192 (![] : Fin 0 → Fin S8x1x8192.rank)
  dot_S8x1x8192_S8192x8192_S8x1x8192_2_0_01_1_n_n_wf : DotDims.WF S8x1x8192 S8192x8192 S8x1x8192 [2] [0] [0, 1] [1] [] []

variable [Facts₀]

def dot_S8x1x8192_S8192x8192_S8x1x8192_2_0_01_1_n_n : DotDims S8x1x8192 S8192x8192 S8x1x8192 where
  lhsContracting := [2]
  rhsContracting := [0]
  lhsNonContracting := [0, 1]
  rhsNonContracting := [1]
  lhsBatch := []
  rhsBatch := []
  wf := dot_S8x1x8192_S8192x8192_S8x1x8192_2_0_01_1_n_n_wf

class Facts : Prop extends Facts₀ where

variable [Facts]
-- ==== Proof.Pieces.lean ====
import proofs.«146511_j43035572306630_2_alg».proof.Proof.Gen.KernelIdeal.Frame
import Idealize.ShloMosaic.Lib.Pipeline.Value
import Idealize.ShloMosaic.Lib.Tactic

set_option maxRecDepth 16384

/-!
# What one pass of the body leaves in the output tile

The body's passes over the grid fall into three kinds, by which block of presynaptic neurons the pass handles.

* The first block: the tile is zeroed, then the block's product is added — the tile ends at  0 + a·w.
* A middle block: the block's product is added to what the previous pass left —  found + a·w.
* The last block: the product is added as before, and the sum is then closed: constant input added, threshold
  subtracted, the result clamped —  close(found + a·w, c, θ).

In each kind the last store covers the whole tile, so the tile ends holding that store's value; a value the pass reads
back from the tile after an earlier store of the same pass is that earlier store's value. Stated for any float values.
-/

noncomputable section

namespace Cert.SpikeLayer.Cases

open Idealize.ShloMosaic Idealize.ShloMosaic.TcCoe Idealize.SL.Sem Idealize.ShloMosaic.Tactic
open Cert.KernelIdeal Cert.KernelIdeal.Gen

variable {F : FTy → Type} [FloatOps F]

theorem origin : (![0, 0] : Fin 2 → Nat) = fun _ => 0 := funext fun a => by fin_cases a <;> rfl

/-- The first block of presynaptic neurons: zero, then the block's product. -/
theorem first_block (c : Dev nD) (i : grid0.Coords) (arg2 : Memref sig .tc .vmem S8x1024 .f32) (harg2 : arg2.IsWhole) (arg3 : Memref sig .tc .vmem S1024x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x4096 .f32) (harg6 : arg6.IsWhole) (hc0 : cond0_0 i) (hc1 : ¬cond0_1 i)
    (x0 : Vec F S8x1024 .f32) (x1 : Vec F S1024x4096 .f32) (x2 : Vec F S8x4096 .f32) (x3 : Vec F S8x4096 .f32) :
    out0_A_4 c i arg2 harg2 arg3 harg3 arg4 harg4 arg5 harg5 arg6 harg6 hc0 hc1 x0 x1 x2 x3 = k0_pay2 (k0_pay1 (F := F)) x0 x1 := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  rw [View.canon_cons_unit_zero (S := S8x4096) origin, View.readCov_unit_zero (S := S8x4096) _ origin]
  simp only [View.readAt_eq_ld, harg2.read_unread, harg3.read_unread, View.ld_unit_zero (S := S8x1024) origin,
    View.ld_unit_zero (S := S1024x4096) origin]

/-- A middle block: the block's product added to the tile found. -/
theorem middle_block (c : Dev nD) (i : grid0.Coords) (arg2 : Memref sig .tc .vmem S8x1024 .f32) (harg2 : arg2.IsWhole) (arg3 : Memref sig .tc .vmem S1024x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x4096 .f32) (harg6 : arg6.IsWhole) (hc0 : ¬cond0_0 i) (hc1 : ¬cond0_1 i)
    (x0 : Vec F S8x1024 .f32) (x1 : Vec F S1024x4096 .f32) (x2 : Vec F S8x4096 .f32) (x3 : Vec F S8x4096 .f32)
    (xo4 : Vec F S8x4096 .f32) :
    out0_B_4 c i arg2 harg2 arg3 harg3 arg4 harg4 arg5 harg5 arg6 harg6 hc0 hc1 x0 x1 x2 x3 xo4 = k0_pay2 xo4 x0 x1 := by
  unfold out0_B_4
  rw [View.read_writes_eq_canon _ _ _ (cover0_B_4 c i arg2 harg2 arg3 harg3 arg4 harg4 arg5 harg5 arg6 harg6 hc0 hc1 x0 x1 x2 x3 xo4)]
  unfold kernelRun0_B
  dsimp only
  sl_unfold_words
  rw [View.canon_unit_zero origin]
  simp only [View.readAt_eq_ld, harg2.read_unread, harg3.read_unread, harg6.read_unread,
    View.ld_unit_zero (S := S8x1024) origin, View.ld_unit_zero (S := S1024x4096) origin,
    View.ld_unit_zero (S := S8x4096) origin]

/-- The last block: the block's product added to the tile found, then the sum closed with the constant inputs (the
    fourth operand's tile) and the thresholds (the third operand's tile). -/
theorem last_block (c : Dev nD) (i : grid0.Coords) (arg2 : Memref sig .tc .vmem S8x1024 .f32) (harg2 : arg2.IsWhole) (arg3 : Memref sig .tc .vmem S1024x4096 .f32) (harg3 : arg3.IsWhole) (arg4 : Memref sig .tc .vmem S8x4096 .f32) (harg4 : arg4.IsWhole) (arg5 : Memref sig .tc .vmem S8x4096 .f32) (harg5 : arg5.IsWhole) (arg6 : Memref sig .tc .vmem S8x4096 .f32) (harg6 : arg6.IsWhole) (hc0 : ¬cond0_0 i) (hc1 : cond0_1 i)
    (x0 : Vec F S8x1024 .f32) (x1 : Vec F S1024x4096 .f32) (x2 : Vec F S8x4096 .f32) (x3 : Vec F S8x4096 .f32)
    (xo4 : Vec F S8x4096 .f32) :
    out0_C_4 c i arg2 harg2 arg3 harg3 arg4 harg4 arg5 harg5 arg6 harg6 hc0 hc1 x0 x1 x2 x3 xo4 = k0_pay3 (k0_pay2 xo4 x0 x1) x3 x2 := by
  unfold out0_C_4
  rw [View.read_writes_eq_canon _ _ _ (cover0_C_4 c i arg2 harg2 arg3 harg3 arg4 harg4 arg5 harg5 arg6 harg6 hc0 hc1 x0 x1 x2 x3 xo4)]
  unfold kernelRun0_C
  dsimp only
  sl_unfold_words
  rw [View.canon_cons_unit_zero (S := S8x4096) origin, View.readCov_unit_zero (S := S8x4096) _ origin]
  simp only [View.readAt_eq_ld, harg2.read_unread, harg3.read_unread, harg4.read_unread, harg5.read_unread,
    harg6.read_unread, View.ld_unit_zero (S := S8x1024) origin, View.ld_unit_zero (S := S1024x4096) origin,
    View.ld_unit_zero (S := S8x4096) origin]

end Cert.SpikeLayer.Cases

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.Payloads.lean ====
import proofs.«146511_j43035572306630_2_alg».proof.Proof.Gen.KernelIdeal.Skeleton
import proofs.«146511_j43035572306630_2_alg».proof.Proof.LibPlainMatmul
import Idealize.ShloMosaic.Lib.ValueIdx
import Idealize.ShloMosaic.Lib.Pipeline.Value

/-!
# What the body stores, entry by entry

The body stores three values into the output block, an [8, 4096] tile of running totals:

* the zero tile, at the first block of presynaptic neurons;
* the tile it found plus the product of the [8, 1024] tile of amplitudes with the [1024, 4096] tile of weights: at row `b`
  and column `n` the entry found plus  ∑ᵣ a(b,r) · w(r,n)  over the block's 1024 presynaptic neurons (a matrix product
  into a zero accumulator is that plain sum at the ideal values);
* at the last block, the tile found plus the constant inputs minus the thresholds, clamped between the two constants —
  an entrywise expression.
-/

noncomputable section

namespace Cert.SpikeLayer.Body

open Idealize.ShloMosaic Idealize.ShloMosaic.ValueIdx
open Cert.KernelIdeal Cert.KernelIdeal.Gen

/-- The printed contraction is the plain one: rows of the left tile against columns of the right. -/
theorem dims_plain : dot_S8x1024_S1024x4096_S8x4096_1_0_0_1_n_n = DotDims.plain 8 1024 4096 := rfl

/-- The zero tile holds the zero word everywhere. -/
theorem zero_tile_apply (j : S8x4096.Idx) : k0_pay1 (F := Ideal) j = Ideal.ofBits .f32 0x00000000#32 := rfl

/-- The accumulating store at row `b`, column `n`: the entry found plus the block's share of the weighted sum. -/
theorem add_block_apply (acc : Vec Ideal S8x4096 .f32) (a : Vec Ideal S8x1024 .f32) (w : Vec Ideal S1024x4096 .f32)
    (b : Fin 8) (n : Fin 4096) :
    k0_pay2 acc a w (ix2 b n) = acc (ix2 b n) + ∑ r : Fin 1024, a (ix2 b r) * w (ix2 r n) := by
  unfold k0_pay2
  simp only [shapeCast_self, dims_plain]
  exact congrArg (acc (ix2 b n) + ·) (Cert.LibPlainMatmul.matmul_plain_apply (some .fp32) a w b n)

/-- The closing store at any entry: the total found plus the constant input minus the threshold, clamped. -/
theorem close_apply (tot cs th : Vec Ideal S8x4096 .f32) (j : S8x4096.Idx) :
    k0_pay3 tot cs th j
      = min (Ideal.ofBits .f32 0x3F666666#32) (max (Ideal.ofBits .f32 0x00000000#32) (tot j + cs j - th j)) := by
  unfold k0_pay3
  simp only [shapeCast_self]
  rfl

end Cert.SpikeLayer.Body

end
-- ==== Proof.LibHostRead.lean ====
/-
  Host operations of small shapes read at an index, at the ideal instance: a cast that drops a middle unit axis,
  [a,1,b] → [a,b]; the host's float sum over the leading axis of a [10,c] array, c = 256 and c = 2, as the initial value
  plus the sum of the ten rows' entries; and a scalar broadcast to any shape, which is that scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.HostRead

open Idealize.ShloMosaic Idealize.ShloMosaic.ValueIdx

variable {α : Type}

/-- An `[a, 1, b]` array cast to `[a, b]` reads, at `(i, j)`, the operand at `(i, 0, j)`: both positions are
    `i·b + j` in row-major order. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A scalar broadcast to any shape is that scalar at every index. -/
theorem broadcast_scalar_apply {t : Shape} (h : (⟨0, ![]⟩ : Shape).BroadcastsInDim t ![]) (x : (⟨0, ![]⟩ : Shape).Idx → α)
    (j : t.Idx) : broadcastInDim t ![] h x j = x (fun a => a.elim0) :=
  broadcastInDim_apply ![] h x j (fun a => a.elim0) (fun a => a.elim0)

/-- The host's float sum over the leading axis of a `[10, 256]` array at column `j`: the initial value plus the ten
    rows' entries of that column. -/
theorem hostSum10_256 (x : (⟨2, ![10, 256]⟩ : Shape).Idx → EReal) (init : EReal)
    (h' : (⟨2, ![10, 256]⟩ : Shape).ReducesTo [0] ⟨1, ![256]⟩) (j : Fin 256) :
    Ideal.hostReduceAdd h' x init (ix1 j) = init + ∑ t : Fin 10, x (ix2 t j) := by
  rw [Ideal.hostReduceAdd_single h' (by decide)]
  refine congrArg (init + ·) (Finset.sum_congr rfl fun k _ => ?_)
  exact congrArg x (funext fun a => Fin.ext (by match a with | ⟨0, _⟩ => rfl | ⟨1, _⟩ => rfl))

/-- The same over a `[10, 2]` array. -/
theorem hostSum10_2 (x : (⟨2, ![10, 2]⟩ : Shape).Idx → EReal) (init : EReal)
    (h' : (⟨2, ![10, 2]⟩ : Shape).ReducesTo [0] ⟨1, ![2]⟩) (j : Fin 2) :
    Ideal.hostReduceAdd h' x init (ix1 j) = init + ∑ t : Fin 10, x (ix2 t j) := by
  rw [Ideal.hostReduceAdd_single h' (by decide)]
  refine congrArg (init + ·) (Finset.sum_congr rfl fun k _ => ?_)
  exact congrArg x (funext fun a => Fin.ext (by match a with | ⟨0, _⟩ => rfl | ⟨1, _⟩ => rfl))

end Cert.HostRead

end
-- ==== Proof.LibBlockSum.lean ====
import Mathlib.Algebra.BigOperators.Fin
import Mathlib.Logic.Equiv.Fin.Basic

/-!
# A finite sum cut into consecutive blocks

A sum over `Fin (B * n)` is the sum over the `B` consecutive blocks of length `n` of the sums inside each block,
and a sum over `Finset.range B` is the sum over `Fin B`. Both hold in every commutative additive monoid: no
subtraction, no finiteness of the terms and no order is used, so they apply to the extended reals as they stand.
The three instances at the end state the first one with literal extents, so that they rewrite a sum whose index
type is written `Fin 8192` or `Fin 16384` and not as a product.
-/

open scoped BigOperators

namespace Cert.LibBlockSum

variable {M : Type*} [AddCommMonoid M]

/-- The `r`-th position of the `j`-th block of length `n` lies below `B * n` when there are `B` blocks. -/
theorem block_lt {B n : ℕ} (j : Fin B) (r : Fin n) : j.val * n + r.val < B * n :=
  calc j.val * n + r.val < j.val * n + n := Nat.add_lt_add_left r.isLt _
    _ = (j.val + 1) * n := (Nat.succ_mul _ _).symm
    _ ≤ B * n := Nat.mul_le_mul_right n j.isLt

/-- A sum of `B * n` terms is the sum over `B` consecutive blocks of the sum of the `n` terms of the block:
    position `k = j * n + r` is the `r`-th term of block `j`, and `(j, r) ↦ j * n + r` is a bijection of
    `Fin B × Fin n` with `Fin (B * n)`. -/
theorem sum_blocks (B n : ℕ) (f : Fin (B * n) → M) :
    ∑ k, f k = ∑ j : Fin B, ∑ r : Fin n, f ⟨j.val * n + r.val, block_lt j r⟩ := by
  rw [← Equiv.sum_comp finProdFinEquiv f, Fintype.sum_prod_type]
  refine Finset.sum_congr rfl fun j _ => Finset.sum_congr rfl fun r _ => ?_
  refine congrArg f (Fin.ext ?_)
  show r.val + n * j.val = j.val * n + r.val
  rw [Nat.add_comm, Nat.mul_comm]

/-- A sum over the naturals below `B` is the sum over `Fin B` of the same terms. -/
theorem sum_range_eq_fin (B : ℕ) (g : ℕ → M) :
    ∑ s ∈ Finset.range B, g s = ∑ j : Fin B, g j.val :=
  (Fin.sum_univ_eq_sum_range g B).symm

/-- A sum of 8192 terms as 8 consecutive blocks of 1024. -/
theorem sum_8192_as_8x1024 (f : Fin 8192 → M) :
    ∑ k, f k = ∑ j : Fin 8, ∑ r : Fin 1024, f ⟨1024 * j.val + r.val, by omega⟩ := by
  refine (sum_blocks 8 1024 f).trans ?_
  refine Finset.sum_congr rfl fun j _ => Finset.sum_congr rfl fun r _ => ?_
  exact congrArg f (Fin.ext (Nat.add_right_cancel_iff.mpr (Nat.mul_comm _ _)))

/-- A sum of 8192 terms as 4 consecutive blocks of 2048. -/
theorem sum_8192_as_4x2048 (f : Fin 8192 → M) :
    ∑ k, f k = ∑ j : Fin 4, ∑ r : Fin 2048, f ⟨2048 * j.val + r.val, by omega⟩ := by
  refine (sum_blocks 4 2048 f).trans ?_
  refine Finset.sum_congr rfl fun j _ => Finset.sum_congr rfl fun r _ => ?_
  exact congrArg f (Fin.ext (Nat.add_right_cancel_iff.mpr (Nat.mul_comm _ _)))

/-- A sum of 16384 terms as 8 consecutive blocks of 2048. -/
theorem sum_16384_as_8x2048 (f : Fin 16384 → M) :
    ∑ k, f k = ∑ j : Fin 8, ∑ r : Fin 2048, f ⟨2048 * j.val + r.val, by omega⟩ := by
  refine (sum_blocks 8 2048 f).trans ?_
  refine Finset.sum_congr rfl fun j _ => Finset.sum_congr rfl fun r _ => ?_
  exact congrArg f (Fin.ext (Nat.add_right_cancel_iff.mpr (Nat.mul_comm _ _)))

end Cert.LibBlockSum
-- ==== Proof.Spec.lean ====
import Idealize.ShloMosaic.PureOps.Ideal
import Idealize.ShloMosaic.PureOps.Ideal.Laws
import Idealize.ShloMosaic.Lib.ValueIdx
import proofs.«146511_j43035572306630_2_alg».proof.Proof.LibBlockSum

/-!
# One layer of threshold neurons, as a function of its inputs

Batch row `b` drives output neuron `n` with the weighted sum  ∑ₖ p(b,k) · W(k,n)  of the 8192 presynaptic amplitudes; the
neuron adds its constant input, subtracts its threshold, and emits that amplitude clamped to the interval [0, 0.9]:

    spike = min(0.9, max(0, (∑ₖ p(b,k) · W(k,n) + c(b,n)) − θ(b,n))).

Everything is an extended real: a sum, a difference, a maximum and a minimum of extended reals, exactly as written.

The weighted sum may be gathered in eight consecutive blocks of 1024 presynaptic neurons, each block's sum added to a
running total that starts at zero. Since addition of extended reals is commutative and associative (with no exception at
the infinities), the running total after the eighth block is the whole sum. Nothing here needs the amplitudes to be finite.
-/

noncomputable section

namespace Cert.SpikeLayer

open Idealize.ShloMosaic

/-- The largest amplitude a neuron emits: the single-precision number nearest 0.9. -/
abbrev cap : EReal := Ideal.ofBits .f32 0x3F666666#32
/-- The smallest: the single-precision zero. It is also where the running total starts. -/
abbrev rest : EReal := Ideal.ofBits .f32 0x00000000#32

/-- A potential clamped to [0, 0.9]. -/
def clamp (x : EReal) : EReal := min cap (max rest x)

/-- A neuron's output from its row of presynaptic amplitudes `p`, its column of weights `w`, its constant input `cs` and
    its threshold `th`. -/
def spike (p w : Fin 8192 → EReal) (cs th : EReal) : EReal := clamp ((∑ k, p k * w k) + cs - th)

/-- Presynaptic neuron `r` of block `s`: number `1024·s + r`. (Reduced mod 8192 so that it is defined for every natural
    `s`; for the eight blocks `s < 8` the reduction does nothing.) -/
def pre (s : ℕ) (r : Fin 1024) : Fin 8192 := ⟨(1024 * s + r.val) % 8192, Nat.mod_lt _ (by decide)⟩

/-- Output neuron `n` of the `j`-th half of the layer: number `4096·j + n`. (Reduced mod 8192 likewise; for `j < 2` the
    reduction does nothing.) -/
def post (j : ℕ) (n : Fin 4096) : Fin 8192 := ⟨(4096 * j + n.val) % 8192, Nat.mod_lt _ (by decide)⟩

theorem pre_val {s : ℕ} (hs : s < 8) (r : Fin 1024) : (pre s r).val = 1024 * s + r.val :=
  Nat.mod_eq_of_lt (by have := r.isLt; omega)

theorem post_val {j : ℕ} (hj : j < 2) (n : Fin 4096) : (post j n).val = 4096 * j + n.val :=
  Nat.mod_eq_of_lt (by have := n.isLt; omega)

/-- Block `s`'s share of the weighted sum. -/
def blockSum (p w : Fin 8192 → EReal) (s : ℕ) : EReal := ∑ r : Fin 1024, p (pre s r) * w (pre s r)

/-- The running total after blocks `0, …, k`: zero, then one block's share after another. -/
def running (p w : Fin 8192 → EReal) (k : ℕ) : EReal := rest + ∑ s ∈ Finset.range (k + 1), blockSum p w s

theorem running_zero (p w : Fin 8192 → EReal) : running p w 0 = rest + blockSum p w 0 := by
  unfold running
  rw [Finset.sum_range_one]

theorem running_succ (p w : Fin 8192 → EReal) (k : ℕ) : running p w (k + 1) = running p w k + blockSum p w (k + 1) := by
  unfold running
  rw [Finset.sum_range_succ _ (k + 1), add_assoc]

/-- After the eighth block the running total is the whole weighted sum. -/
theorem running_seven (p w : Fin 8192 → EReal) : running p w 7 = ∑ k, p k * w k := by
  unfold running
  show Ideal.ofBits .f32 0x00000000#32 + _ = _
  rw [Ideal.ofBits_zero_f32, zero_add, Cert.LibBlockSum.sum_range_eq_fin 8 (blockSum p w),
    Cert.LibBlockSum.sum_8192_as_8x1024 (fun k => p k * w k)]
  refine Finset.sum_congr rfl fun j _ => Finset.sum_congr rfl fun r _ => ?_
  have e : pre j.val r = ⟨1024 * j.val + r.val, by have := j.isLt; have := r.isLt; omega⟩ := Fin.ext (pre_val j.isLt r)
  rw [e]

end Cert.SpikeLayer

end
-- ==== Proof.Tiles.lean ====
import proofs.«146511_j43035572306630_2_alg».proof.Proof.Gen.KernelIdeal.Frame
import proofs.«146511_j43035572306630_2_alg».proof.Proof.LibHostRead
import proofs.«146511_j43035572306630_2_alg».proof.Proof.Spec
import Idealize.ShloMosaic.Lib.Pipeline.Value
import Idealize.ShloMosaic.Lib.StableHlo.Run
import Idealize.ShloMosaic.Lib.ValueIdx

set_option maxRecDepth 16384

/-!
# Which entries of the arrays a pass of the body sees

The grid has sixteen points: point `t` handles block `t mod 8` of the presynaptic neurons for half `t div 8` of the output
neurons. At that point

* the amplitudes' tile is rows 0..7, columns `1024·(t mod 8) + r` of the [8, 8192] amplitudes;
* the weights' tile is rows `1024·(t mod 8) + r`, columns `4096·(t div 8) + n` of the [8192, 8192] weights;
* the thresholds' and constant inputs' tiles are rows 0..7, columns `4096·(t div 8) + n` of their [8, 8192] arrays.

The three [8, 8192] arrays are the [8, 1, 8192] arguments with their middle axis of extent one dropped: entry (b, k) is
the argument's entry (b, 0, k).
-/

noncomputable section

namespace Cert.SpikeLayer.Tiles

open Idealize.ShloMosaic Idealize.ShloMosaic.TcCoe Idealize.SL.Sem Idealize.ShloMosaic.ValueIdx
open Cert.KernelIdeal Cert.KernelIdeal.Gen Cert.SpikeLayer

variable {F : FTy → Type} [FloatOps F]
variable (m : (ℓ : Loc nD τ sig) → Buf (Elt F) ℓ)

/-- The block each window is on at point `t`, on each axis: decided over the sixteen points. -/
theorem block_of_point : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8 :=
  (by decide +kernel : ∀ t : Fin grid0.N, _)

theorem point_lt (t : Fin cfg0.N) : t.val < 16 := lt_of_lt_of_eq t.isLt (show cfg0.N = 16 from N_0)

/-- The amplitudes' tile at point `t`. -/
theorem amplitudes_tile (c : Dev nD) (t : Fin cfg0.N) (b : Fin 8) (r : Fin 1024) :
    (iblk m c 0 t : Vec F S8x1024 .f32) (ix2 b r) = (V m c main_v0 : S8x8192.Idx → Elt F .f32) (ix2 b (pre (t.val % 8) r)) := by
  have ht := point_lt t
  obtain ⟨e0, e1, -⟩ := block_of_point t
  unfold iblk
  rw [View.read_apply]
  show V m c main_v0 _ = V m c main_v0 _
  refine congrArg (V m c main_v0) (funext fun a => Fin.ext ?_)
  match a with
  | ⟨0, _⟩ => show win0_0.index t (0 : Fin 2) * 8 + 1 * b.val = b.val; omega
  | ⟨1, _⟩ =>
    show win0_0.index t (1 : Fin 2) * 1024 + 1 * r.val = (pre (t.val % 8) r).val
    rw [pre_val (by omega)]; omega

/-- The weights' tile at point `t`. -/
theorem weights_tile (c : Dev nD) (t : Fin cfg0.N) (r : Fin 1024) (n : Fin 4096) :
    (iblk m c 1 t : Vec F S1024x4096 .f32) (ix2 r n)
      = (V m c main_arg1 : S8192x8192.Idx → Elt F .f32) (ix2 (pre (t.val % 8) r) (post (t.val / 8) n)) := by
  have ht := point_lt t
  obtain ⟨-, -, e0, e1, -⟩ := block_of_point t
  unfold iblk
  rw [View.read_apply]
  show V m c main_arg1 _ = V m c main_arg1 _
  refine congrArg (V m c main_arg1) (funext fun a => Fin.ext ?_)
  match a with
  | ⟨0, _⟩ =>
    show win0_1.index t (0 : Fin 2) * 1024 + 1 * r.val = (pre (t.val % 8) r).val
    rw [pre_val (by omega)]; omega
  | ⟨1, _⟩ =>
    show win0_1.index t (1 : Fin 2) * 4096 + 1 * n.val = (post (t.val / 8) n).val
    rw [post_val (by omega)]; omega

/-- The thresholds' tile at point `t`. -/
theorem thresholds_tile (c : Dev nD) (t : Fin cfg0.N) (b : Fin 8) (n : Fin 4096) :
    (iblk m c 2 t : Vec F S8x4096 .f32) (ix2 b n) = (V m c main_v1 : S8x8192.Idx → Elt F .f32) (ix2 b (post (t.val / 8) n)) := by
  have ht := point_lt t
  obtain ⟨-, -, -, -, e0, e1, -⟩ := block_of_point t
  unfold iblk
  rw [View.read_apply]
  show V m c main_v1 _ = V m c main_v1 _
  refine congrArg (V m c main_v1) (funext fun a => Fin.ext ?_)
  match a with
  | ⟨0, _⟩ => show win0_2.index t (0 : Fin 2) * 8 + 1 * b.val = b.val; omega
  | ⟨1, _⟩ =>
    show win0_2.index t (1 : Fin 2) * 4096 + 1 * n.val = (post (t.val / 8) n).val
    rw [post_val (by omega)]; omega

/-- The constant inputs' tile at point `t`. -/
theorem constants_tile (c : Dev nD) (t : Fin cfg0.N) (b : Fin 8) (n : Fin 4096) :
    (iblk m c 3 t : Vec F S8x4096 .f32) (ix2 b n) = (V m c main_v2 : S8x8192.Idx → Elt F .f32) (ix2 b (post (t.val / 8) n)) := by
  have ht := point_lt t
  obtain ⟨-, -, -, -, -, -, e0, e1, -⟩ := block_of_point t
  unfold iblk
  rw [View.read_apply]
  show V m c main_v2 _ = V m c main_v2 _
  refine congrArg (V m c main_v2) (funext fun a => Fin.ext ?_)
  match a with
  | ⟨0, _⟩ => show win0_3.index t (0 : Fin 2) * 8 + 1 * b.val = b.val; omega
  | ⟨1, _⟩ =>
    show win0_3.index t (1 : Fin 2) * 4096 + 1 * n.val = (post (t.val / 8) n).val
    rw [post_val (by omega)]; omega

/-! ## The arrays the region finds -/

/-- The amplitudes as the region finds them: the first argument with its unit axis dropped. -/
theorem amplitudes_in (c : Dev nD) : (V m c main_v0 : S8x8192.Idx → Elt F .f32)
    = shapeCast S8x8192 (m ((c : Thread nD τ).loc main_arg0)) shapeCasts_S8x1x8192_S8x8192 := by
  show StableHlo.after hostOps0 (fun b => m (c, b)) (Proc.devRef .tc main_v0) = _
  after_results
  rfl

/-- The thresholds as the region finds them: the third argument with its unit axis dropped. -/
theorem thresholds_in (c : Dev nD) : (V m c main_v1 : S8x8192.Idx → Elt F .f32)
    = shapeCast S8x8192 (m ((c : Thread nD τ).loc main_arg2)) shapeCasts_S8x1x8192_S8x8192 := by
  show StableHlo.after hostOps0 (fun b => m (c, b)) (Proc.devRef .tc main_v1) = _
  after_results
  rfl

/-- The constant inputs as the region finds them: the fourth argument with its unit axis dropped. -/
theorem constants_in (c : Dev nD) : (V m c main_v2 : S8x8192.Idx → Elt F .f32)
    = shapeCast S8x8192 (m ((c : Thread nD τ).loc main_arg3)) shapeCasts_S8x1x8192_S8x8192 := by
  show StableHlo.after hostOps0 (fun b => m (c, b)) (Proc.devRef .tc main_v2) = _
  after_results
  rfl

/-- Entry (b, k) of each is the argument's entry (b, 0, k). -/
theorem amplitudes_in_apply (c : Dev nD) (b : Fin 8) (k : Fin 8192) :
    (V m c main_v0 : S8x8192.Idx → Elt F .f32) (ix2 b k)
      = (m ((c : Thread nD τ).loc main_arg0) : S8x1x8192.Idx → Elt F .f32) (ix3 b (0 : Fin 1) k) := by
  rw [amplitudes_in]
  exact Cert.HostRead.shapeCast_a1b_ab_apply _ shapeCasts_S8x1x8192_S8x8192 b k

theorem thresholds_in_apply (c : Dev nD) (b : Fin 8) (k : Fin 8192) :
    (V m c main_v1 : S8x8192.Idx → Elt F .f32) (ix2 b k)
      = (m ((c : Thread nD τ).loc main_arg2) : S8x1x8192.Idx → Elt F .f32) (ix3 b (0 : Fin 1) k) := by
  rw [thresholds_in]
  exact Cert.HostRead.shapeCast_a1b_ab_apply _ shapeCasts_S8x1x8192_S8x8192 b k

theorem constants_in_apply (c : Dev nD) (b : Fin 8) (k : Fin 8192) :
    (V m c main_v2 : S8x8192.Idx → Elt F .f32) (ix2 b k)
      = (m ((c : Thread nD τ).loc main_arg3) : S8x1x8192.Idx → Elt F .f32) (ix3 b (0 : Fin 1) k) := by
  rw [constants_in]
  exact Cert.HostRead.shapeCast_a1b_ab_apply _ shapeCasts_S8x1x8192_S8x8192 b k

end Cert.SpikeLayer.Tiles

end
-- ==== Proof.Accumulate.lean ====
import proofs.«146511_j43035572306630_2_alg».proof.Proof.Pieces
import proofs.«146511_j43035572306630_2_alg».proof.Proof.Payloads
import proofs.«146511_j43035572306630_2_alg».proof.Proof.Tiles
import proofs.«146511_j43035572306630_2_alg».proof.Proof.Spec

set_option maxRecDepth 16384

/-!
# The output tile after each point of the grid

Read at the ideal values. Fix a batch row `b` and an output neuron `q` of the current half. Going through the eight blocks
of presynaptic neurons the tile's entry (b, q) holds, after block `k < 7`, the running total of the weighted sum over
blocks `0, …, k`; and after the eighth block the neuron's output: the whole weighted sum plus the constant input minus
the threshold, clamped. By induction on the point: a first block starts the total from zero, a middle block adds its
share to the total the point before left, the last block adds its share and closes the sum.
-/

noncomputable section

namespace Cert.SpikeLayer.Grid

open Idealize.ShloMosaic Idealize.ShloMosaic.TcCoe Idealize.SL.Sem Idealize.ShloMosaic.ValueIdx
open Cert.KernelIdeal Cert.KernelIdeal.Gen Cert.SpikeLayer

/-! ## One pass at one entry, over any tiles -/

/-- First block: the entry becomes zero plus the block's share. -/
theorem first_entry (x0 : Vec Ideal S8x1024 .f32) (x1 : Vec Ideal S1024x4096 .f32) (p w : Fin 8192 → EReal) (s : ℕ)
    (b : Fin 8) (q : Fin 4096) (h0 : ∀ r, x0 (ix2 b r) = p (pre s r)) (h1 : ∀ r, x1 (ix2 r q) = w (pre s r)) :
    k0_pay2 (k0_pay1 (F := Ideal)) x0 x1 (ix2 b q) = rest + blockSum p w s := by
  rw [Body.add_block_apply, Body.zero_tile_apply]
  unfold blockSum
  exact congrArg (rest + ·) (Finset.sum_congr rfl fun r _ => by rw [h0, h1])

/-- Middle block: the entry found plus the block's share. -/
theorem middle_entry (acc : Vec Ideal S8x4096 .f32) (x0 : Vec Ideal S8x1024 .f32) (x1 : Vec Ideal S1024x4096 .f32)
    (p w : Fin 8192 → EReal) (s : ℕ) (b : Fin 8) (q : Fin 4096) (tot : EReal) (ha : acc (ix2 b q) = tot)
    (h0 : ∀ r, x0 (ix2 b r) = p (pre s r)) (h1 : ∀ r, x1 (ix2 r q) = w (pre s r)) :
    k0_pay2 acc x0 x1 (ix2 b q) = tot + blockSum p w s := by
  rw [Body.add_block_apply, ha]
  unfold blockSum
  exact congrArg (tot + ·) (Finset.sum_congr rfl fun r _ => by rw [h0, h1])

/-- Last block: the entry found plus the block's share, then constant input added, threshold subtracted, clamped. -/
theorem last_entry (acc : Vec Ideal S8x4096 .f32) (x0 : Vec Ideal S8x1024 .f32) (x1 : Vec Ideal S1024x4096 .f32)
    (x2 x3 : Vec Ideal S8x4096 .f32) (p w : Fin 8192 → EReal) (s : ℕ) (b : Fin 8) (q : Fin 4096) (tot cs th : EReal)
    (ha : acc (ix2 b q) = tot) (h0 : ∀ r, x0 (ix2 b r) = p (pre s r)) (h1 : ∀ r, x1 (ix2 r q) = w (pre s r))
    (h2 : x2 (ix2 b q) = th) (h3 : x3 (ix2 b q) = cs) :
    k0_pay3 (k0_pay2 acc x0 x1) x3 x2 (ix2 b q) = clamp (tot + blockSum p w s + cs - th) := by
  rw [Body.close_apply, middle_entry acc x0 x1 p w s b q tot ha h0 h1, h2, h3]
  rfl

/-! ## The arrays the region finds, by row and by column -/

variable (m : (ℓ : Loc nD τ sig) → Buf (Elt Ideal) ℓ)

/-- Batch row `b` of the amplitudes. -/
abbrev amp (c : Dev nD) (b : Fin 8) : Fin 8192 → EReal := fun k => (V m c main_v0 : S8x8192.Idx → EReal) (ix2 b k)
/-- The weights into output neuron `q`. -/
abbrev wgt (c : Dev nD) (q : Fin 8192) : Fin 8192 → EReal := fun k => (V m c main_arg1 : S8192x8192.Idx → EReal) (ix2 k q)
/-- Neuron `q`'s constant input for batch row `b`. -/
abbrev cin (c : Dev nD) (b : Fin 8) (q : Fin 8192) : EReal := (V m c main_v2 : S8x8192.Idx → EReal) (ix2 b q)
/-- Neuron `q`'s threshold for batch row `b`. -/
abbrev thr (c : Dev nD) (b : Fin 8) (q : Fin 8192) : EReal := (V m c main_v1 : S8x8192.Idx → EReal) (ix2 b q)

/-- What entry (b, q) of the tile holds after point `n`: the neuron's output once its eighth block is in, the running
    total before. -/
def tileAfter (c : Dev nD) (n : ℕ) (b : Fin 8) (q : Fin 4096) : EReal :=
  if n % 8 = 7 then spike (amp m c b) (wgt m c (post (n / 8) q)) (cin m c b (post (n / 8) q)) (thr m c b (post (n / 8) q))
  else running (amp m c b) (wgt m c (post (n / 8) q)) (n % 8)

/-- A point on a first block. -/
theorem step_first (c : Dev nD) (t : Fin cfg0.N) (h0 : t.val % 8 = 0) (b : Fin 8) (q : Fin 4096) :
    outsAt0 m c t.val t.isLt (ix2 b q) = tileAfter m c t.val b q := by
  have h1 : ¬t.val % 8 = 7 := by omega
  refine (congrFun (outsAt0_A m c t h0 h1) (ix2 b q)).trans ?_
  refine (congrFun (Cases.first_block c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t)) (ix2 b q)).trans ?_
  refine (first_entry (iblk m c 0 t) (iblk m c 1 t) (amp m c b) (wgt m c (post (t.val / 8) q)) (t.val % 8) b q
    (fun r => Tiles.amplitudes_tile m c t b r) (fun r => Tiles.weights_tile m c t r q)).trans ?_
  unfold tileAfter
  rw [if_neg h1, h0]
  exact (running_zero _ _).symm

/-- A point on a middle block, given the entry the point before left. -/
theorem step_middle (c : Dev nD) (t : Fin cfg0.N) (h0 : ¬t.val % 8 = 0) (h1 : ¬t.val % 8 = 7) (b : Fin 8) (q : Fin 4096)
    (ih : outsAt0 m c (t.val - 1) (Nat.lt_of_le_of_lt (Nat.sub_le _ _) t.isLt) (ix2 b q) = tileAfter m c (t.val - 1) b q) :
    outsAt0 m c t.val t.isLt (ix2 b q) = tileAfter m c t.val b q := by
  refine (congrFun (outsAt0_B m c t h0 h1) (ix2 b q)).trans ?_
  refine (congrFun (Cases.middle_block c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt))) (ix2 b q)).trans ?_
  refine (middle_entry (outsAt0 m c (t.val - 1) (Nat.lt_of_le_of_lt (Nat.sub_le _ _) t.isLt)) (iblk m c 0 t) (iblk m c 1 t)
    (amp m c b) (wgt m c (post (t.val / 8) q)) (t.val % 8) b q _ ih
    (fun r => Tiles.amplitudes_tile m c t b r) (fun r => Tiles.weights_tile m c t r q)).trans ?_
  have hp : ¬(t.val - 1) % 8 = 7 := by omega
  have hd : (t.val - 1) / 8 = t.val / 8 := by omega
  have hm : (t.val - 1) % 8 + 1 = t.val % 8 := by omega
  unfold tileAfter
  rw [if_neg hp, if_neg h1, hd, ← hm]
  exact (running_succ _ _ _).symm

/-- A point on a last block, given the entry the point before left. -/
theorem step_last (c : Dev nD) (t : Fin cfg0.N) (h0 : ¬t.val % 8 = 0) (h1 : t.val % 8 = 7) (b : Fin 8) (q : Fin 4096)
    (ih : outsAt0 m c (t.val - 1) (Nat.lt_of_le_of_lt (Nat.sub_le _ _) t.isLt) (ix2 b q) = tileAfter m c (t.val - 1) b q) :
    outsAt0 m c t.val t.isLt (ix2 b q) = tileAfter m c t.val b q := by
  refine (congrFun (outsAt0_C m c t h0 h1) (ix2 b q)).trans ?_
  refine (congrFun (Cases.last_block c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt))) (ix2 b q)).trans ?_
  refine (last_entry (outsAt0 m c (t.val - 1) (Nat.lt_of_le_of_lt (Nat.sub_le _ _) t.isLt)) (iblk m c 0 t) (iblk m c 1 t)
    (iblk m c 2 t) (iblk m c 3 t) (amp m c b) (wgt m c (post (t.val / 8) q)) (t.val % 8) b q _
    (cin m c b (post (t.val / 8) q)) (thr m c b (post (t.val / 8) q)) ih
    (fun r => Tiles.amplitudes_tile m c t b r) (fun r => Tiles.weights_tile m c t r q)
    (Tiles.thresholds_tile m c t b q) (Tiles.constants_tile m c t b q)).trans ?_
  have hp : ¬(t.val - 1) % 8 = 7 := by omega
  have hd : (t.val - 1) / 8 = t.val / 8 := by omega
  have hm : (t.val - 1) % 8 = 6 := by omega
  unfold tileAfter
  rw [if_neg hp, if_pos h1, hd, hm, h1]
  unfold spike
  rw [← running_seven, running_succ _ _ 6]

/-- After every point the tile's entry is the running total, or the finished output. -/
theorem tile_eq (c : Dev nD) (n : ℕ) : ∀ (h : n < cfg0.N) (b : Fin 8) (q : Fin 4096),
    outsAt0 m c n h (ix2 b q) = tileAfter m c n b q := by
  induction n with
  | zero => intro h b q; exact step_first m c ⟨0, h⟩ (Nat.zero_mod 8) b q
  | succ n ih =>
    intro h b q
    by_cases h0 : (n + 1) % 8 = 0
    · exact step_first m c ⟨n + 1, h⟩ h0 b q
    · by_cases h1 : (n + 1) % 8 = 7
      · exact step_last m c ⟨n + 1, h⟩ h0 h1 b q (ih (Nat.lt_of_succ_lt h) b q)
      · exact step_middle m c ⟨n + 1, h⟩ h0 h1 b q (ih (Nat.lt_of_succ_lt h) b q)

end Cert.SpikeLayer.Grid

end
-- ==== Proof.Region.lean ====
import proofs.«146511_j43035572306630_2_alg».proof.Proof.Accumulate
import Idealize.ShloMosaic.Lib.Pipeline.Value

set_option maxRecDepth 16384

/-!
# The array the grid leaves

The output tile is written back to the [8, 8192] result twice: after the eighth block of each half of the output neurons,
to columns `4096·j .. 4096·j + 4095` for half `j`. At that moment every entry of the tile is a finished output. The two
write-backs cover the whole array (column `q` lies in half `q div 4096`), so the array ends holding, at (b, q), output
neuron `q`'s spike for batch row `b`.
-/

noncomputable section

namespace Cert.SpikeLayer.Region

open Idealize.ShloMosaic Idealize.ShloMosaic.TcCoe Idealize.SL.Sem Idealize.ShloMosaic.ValueIdx
open Idealize.ShloMosaic.Pipeline (Dat)
open Cert.KernelIdeal Cert.KernelIdeal.Gen Cert.SpikeLayer

variable (m : (ℓ : Loc nD τ sig) → Buf (Elt Ideal) ℓ)

/-- The [8, 8192] array of finished outputs, over the arrays the region finds. -/
def regionOut (c : Dev nD) : S8x8192.Idx → EReal := fun i =>
  spike (Grid.amp m c (i 0)) (Grid.wgt m c (i 1)) (Grid.cin m c (i 0) (i 1)) (Grid.thr m c (i 0) (i 1))

/-- What a writing-back point writes is its tile of the finished outputs. -/
theorem flushed_eq (c : Dev nD) (t : Fin cfg0.N) (hf : (cfg0.win 4).flush t = true) :
    (dats m 0 c).flushed 4 t = ((cfg0.win 4).blk t).view.read (Elt Ideal) (regionOut m c) := by
  have h7 : t.val % 8 = 7 := (flush0_4 t).mp hf
  have ht := Tiles.point_lt t
  obtain ⟨-, -, -, -, -, -, -, -, e0, e1⟩ := Tiles.block_of_point t
  show (cfg0.win 4).cut (grid0.coords t) ((dats m 0 c).after 4 t) = _
  rw [after0_4]
  funext y
  obtain ⟨b, q, rfl⟩ : ∃ (b : Fin 8) (q : Fin 4096), y = ix2 b q := ⟨y 0, y 1, eq_ix2 y⟩
  rw [View.read_apply]
  show outsAt0 m c t.val t.isLt (ix2 b q) = regionOut m c (((cfg0.win 4).blk t).view.emb (ix2 b q))
  have hemb : ((cfg0.win 4).blk t).view.emb (ix2 b q) = (ix2 b (post (t.val / 8) q) : S8x8192.Idx) :=
    funext fun a => Fin.ext (by
      match a with
      | ⟨0, _⟩ => show win0_4.index t (0 : Fin 2) * 8 + 1 * b.val = b.val; omega
      | ⟨1, _⟩ =>
        show win0_4.index t (1 : Fin 2) * 4096 + 1 * q.val = (post (t.val / 8) q).val
        rw [post_val (by omega)]; omega)
  rw [hemb, Grid.tile_eq]
  unfold Grid.tileAfter regionOut
  rw [if_pos h7]

/-- An entry of the array is in point `t`'s tile iff each coordinate is in the tile's range on its axis. -/
theorem mem_tile (t : Fin cfg0.N) (i : S8x8192.Idx) :
    i ∈ ((cfg0.win 4).blk t).view.set
      ↔ ∀ a : Fin 2, win0_4.index t a * S8x4096.size a ≤ (i a).val ∧ (i a).val < win0_4.index t a * S8x4096.size a + S8x4096.size a := by
  show i ∈ ((View.whole main_v3).slice (win0_4.rect t)).set ↔ _
  rw [View.set_slice_whole, Rect.mem_set_unit]
  exact Iff.rfl

/-- Every entry is in the tile some writing-back point writes: the eighth block's point of the entry's half. -/
theorem covered (i : S8x8192.Idx) :
    ∃ t : Fin cfg0.N, (cfg0.win 4).flush t = true ∧ i ∈ ((cfg0.win 4).blk t).view.set := by
  have hi0 : (i 0).val < 8 := idx2_lt0 i
  have hi1 : (i 1).val < 8192 := idx2_lt1 i
  have hN : cfg0.N = 16 := N_0
  obtain ⟨t, htv⟩ : ∃ t : Fin cfg0.N, t.val = 8 * ((i 1).val / 4096) + 7 := ⟨⟨8 * ((i 1).val / 4096) + 7, by rw [hN]; omega⟩, rfl⟩
  obtain ⟨-, -, -, -, -, -, -, -, e0, e1⟩ := Tiles.block_of_point t
  refine ⟨t, (flush0_4 t).mpr (by omega), ?_⟩
  rw [mem_tile]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 4096 ≤ (i 1).val ∧ (i 1).val < win0_4.index t (1 : Fin 2) * 4096 + 4096; omega

/-- The result array after the grid: the finished outputs. -/
theorem region_final (c : Dev nD) : (dats m 0 c).arrAt 4 cfg0.N = regionOut m c :=
  (dats m 0 c).arrAt_eq_of_cover 4 (regionOut m c) (flushed_eq m c) covered

end Cert.SpikeLayer.Region

end
-- ==== Proof.Layer.lean ====
import proofs.«146511_j43035572306630_2_alg».proof.Proof.Spec

/-!
# The layer over its four arguments

The amplitudes, thresholds and constant inputs arrive as [8, 1, 8192] arrays (batch row, a unit axis, neuron) and the
weights as an [8192, 8192] array (presynaptic neuron, output neuron). Entry (b, o, n) of the result is output neuron `n`'s
spike for batch row `b`: its row of amplitudes is the amplitudes' row (b, o, ·), its column of weights the weights' column
(·, n), its constant input and threshold the entries (b, o, n).
-/

noncomputable section

namespace Cert.SpikeLayer

open Idealize.ShloMosaic Idealize.ShloMosaic.ValueIdx

/-- The layer's output array as a function of its four argument arrays. -/
def layer (x : (⟨3, ![8, 1, 8192]⟩ : Shape).Idx → EReal) (W : (⟨2, ![8192, 8192]⟩ : Shape).Idx → EReal)
    (th cs : (⟨3, ![8, 1, 8192]⟩ : Shape).Idx → EReal) : (⟨3, ![8, 1, 8192]⟩ : Shape).Idx → EReal :=
  fun i => spike (fun k => x (ix3 (i 0) (i 1) k)) (fun k => W (ix2 k (i 2))) (cs i) (th i)

end Cert.SpikeLayer

end
-- ==== Proof.LibUnsqueeze.lean ====
/-
  A cast that inserts a middle axis of extent one, [a, b] → [a, 1, b], read at an index: entry (i, 0, j) of the result is
  entry (i, j) of the operand, both being at position i·b + j in row-major order. (The companion of the cast that drops
  that axis.)
-/
import Idealize.ShloMosaic.Lib.ValueIdx
import Idealize.ShloMosaic.Lib.Pipeline.Value

noncomputable section

namespace Cert.LibUnsqueeze

open Idealize.ShloMosaic Idealize.ShloMosaic.ValueIdx

variable {α : Type}

/-- An `[a, b]` array cast to `[a, 1, b]` reads, at `(i, o, j)`, the operand at `(i, j)`: the middle coordinate `o` can only
    be zero, and both positions are `i·b + j` in row-major order. -/
theorem shapeCast_ab_a1b_apply {a b : ℕ} (x : (⟨2, ![a, b]⟩ : Shape).Idx → α)
    (h : (⟨2, ![a, b]⟩ : Shape).ShapeCasts ⟨3, ![a, 1, b]⟩) (i : Fin a) (o : Fin 1) (j : Fin b) :
    shapeCast ⟨3, ![a, 1, b]⟩ x h (ix3 i o j) = x (ix2 i j) :=
  shapeCast_apply x h _ _ (by
    rw [Shape.rowMajor_val_two, Shape.rowMajor_val_three]
    show i.val * b + j.val = (i.val * 1 + o.val) * b + j.val
    have ho : o.val = 0 := by have := o.isLt; omega
    rw [ho, Nat.mul_one, Nat.add_zero])

end Cert.LibUnsqueeze

end
-- ==== Proof.KernelRun.lean ====
import proofs.«146511_j43035572306630_2_alg».proof.Proof.Region
import proofs.«146511_j43035572306630_2_alg».proof.Proof.Layer
import proofs.«146511_j43035572306630_2_alg».proof.Proof.LibUnsqueeze
import Idealize.ShloMosaic.Lib.StableHlo.Run

set_option maxRecDepth 16384

/-!
# The kernel program computes the layer

After the grid the program reshapes the [8, 8192] array of finished outputs to [8, 1, 8192]: entry (b, 0, n) is entry
(b, n). The arrays the grid read were the arguments with their unit axis dropped, and the weights as given; so entry
(b, 0, n) of the result is output neuron `n`'s spike for batch row `b` over the four arguments — the layer.
-/

noncomputable section

namespace Cert.SpikeLayer.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.SpikeLayer

variable (m : (ℓ : Loc nD τ sig) → Buf (Elt Ideal) ℓ) (ρ : Dev nD → PrngReg)

/-- The program's result after its closing reshape: the finished outputs with a unit axis inserted. -/
theorem result_eq (c : Dev nD) :
    Pipeline.afterTail₀ cfgs (dats m) 0 (V0 m) [hostOps1] c main_v4
      = shapeCast S8x1x8192 (Region.regionOut m c) shapeCasts_S8x8192_S8x1x8192 := by
  unfold Pipeline.afterTail₀
  show StableHlo.after hostOps1 _ (Proc.devRef .tc main_v4) = _
  after_results
  exact congrArg (fun x => shapeCast S8x1x8192 x shapeCasts_S8x8192_S8x1x8192)
    ((Pipeline.withArrays_arr spec0 launch0.win.arr_inj c _ _ 4).trans (Region.region_final m c))

/-- That array is the layer of the four arguments. -/
theorem result_is_layer (c : Dev nD) :
    shapeCast S8x1x8192 (Region.regionOut m c) shapeCasts_S8x8192_S8x1x8192
      = layer (m ((c : Thread nD τ).loc main_arg0)) (m ((c : Thread nD τ).loc main_arg1)) (m ((c : Thread nD τ).loc main_arg2)) (m ((c : Thread nD τ).loc main_arg3)) := by
  funext i
  obtain ⟨b, o, n, rfl⟩ : ∃ (b : Fin 8) (o : Fin 1) (n : Fin 8192), i = ix3 b o n := ⟨i 0, i 1, i 2, eq_ix3 i⟩
  obtain rfl : o = 0 := Subsingleton.elim _ _
  rw [Cert.LibUnsqueeze.shapeCast_ab_a1b_apply]
  have ea : Grid.amp m c b = fun k => ((m ((c : Thread nD τ).loc main_arg0)) : S8x1x8192.Idx → EReal) (ix3 b (0 : Fin 1) k) :=
    funext fun k => Tiles.amplitudes_in_apply m c b k
  have ew : Grid.wgt m c n = fun k => ((m ((c : Thread nD τ).loc main_arg1)) : S8192x8192.Idx → EReal) (ix2 k n) :=
    funext fun k => congrFun (V_main_arg1 m c) (ix2 k n)
  have ec : Grid.cin m c b n = ((m ((c : Thread nD τ).loc main_arg3)) : S8x1x8192.Idx → EReal) (ix3 b (0 : Fin 1) n) :=
    Tiles.constants_in_apply m c b n
  have et : Grid.thr m c b n = ((m ((c : Thread nD τ).loc main_arg2)) : S8x1x8192.Idx → EReal) (ix3 b (0 : Fin 1) n) :=
    Tiles.thresholds_in_apply m c b n
  show spike (Grid.amp m c b) (Grid.wgt m c n) (Grid.cin m c b n) (Grid.thr m c b n) = _
  rw [ea, ew, ec, et]
  rfl

/-- The program's run, read: every weakly fair execution ends with the result at the layer of the arguments and the
    arguments as they were. -/
theorem run : θ_run defs (onTc (τ := τ) (main (F := Ideal))) ⟨m, fun _ => 0, ρ⟩ fun r => ∀ c : Dev nD,
      r.2.mem ((c : Thread nD τ).loc main_v4) = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun _ h c =>
    ⟨((h c).2 main_v4 (Pipeline.mem_restRefs_of main_v4 (by decide) (by decide))).trans
        ((result_eq m c).trans (result_is_layer m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.SpikeLayer.KernelRun

end
-- ==== Proof.Reference.lean ====
import proofs.«146511_j43035572306630_2_alg».proof.Proof.Gen.ReferenceIdeal.Read
import proofs.«146511_j43035572306630_2_alg».proof.Proof.Layer

/-!
# The reference computes the layer

Read one operation at a time at an index (b, o, n), the reference is: the contraction of the amplitudes' last axis with
the weights' first — the sum over k of amplitude (b, o, k) times weight (k, n) —, plus the constant input, minus the
threshold, then the maximum with the zero constant and the minimum with the 0.9 constant. That is the layer's entry as
specified, term for term.
-/

noncomputable section

namespace Cert.SpikeLayer.Ref

open Idealize.ShloMosaic Idealize.ShloMosaic.ValueIdx
open Cert.ReferenceIdeal Cert.ReferenceIdeal.Read Cert.SpikeLayer

/-- The reference's result, as a function of its four arguments, is the layer. -/
theorem reference_is_layer (x0 : S8x1x8192.Idx → EReal) (x1 : S8192x8192.Idx → EReal) (x2 x3 : S8x1x8192.Idx → EReal) :
    val_main_v3 (F := Ideal) x0 x1 x2 x3 = layer x0 x1 x2 x3 := by
  funext i
  have el : ∀ k, lidx_main_v0 i k = ix3 (i 0) (i 1) k := fun k => funext fun a => Fin.ext (by
    match a with
    | ⟨0, _⟩ => rfl
    | ⟨1, _⟩ => rfl
    | ⟨2, _⟩ => rfl)
  have er : ∀ k, ridx_main_v0 i k = ix2 k (i 2) := fun k => funext fun a => Fin.ext (by
    match a with
    | ⟨0, _⟩ => rfl
    | ⟨1, _⟩ => rfl)
  rw [val_main_v3_apply, val_main_call0_v4_apply, val_main_call0_v3_apply, val_main_cst_0_apply,
    val_main_call0_v2_apply, val_main_call0_v1_apply, val_main_call0_v0_apply, val_main_cst_apply,
    val_main_v2_apply, val_main_v1_apply, val_main_v0_apply]
  simp only [el, er]
  rfl

end Cert.SpikeLayer.Ref

end
-- ==== Proof.lean ====
/-
  A layer of 8192 threshold neurons over a batch of 8 rows of 8192 presynaptic amplitudes: output neuron n, for batch row b,
  emits

      min(0.9, max(0, (∑ₖ amplitude(b,k) · weight(k,n) + constant(b,n)) − threshold(b,n))),

  the clamp's two constants being the single-precision zero and the single-precision number nearest 0.9, the same words in
  both programs.

  The tiled program gathers the weighted sum in eight consecutive blocks of 1024 presynaptic neurons, for each half of the
  output neurons in turn: it zeroes an [8, 4096] tile of running totals at a half's first block, adds each block's
  [8, 1024] × [1024, 4096] product to the tile, and at the half's eighth block adds the constant inputs, subtracts the
  thresholds, clamps, and lets the tile be written to its half of the result. The plain program contracts the whole axis at
  once and applies the same sum, difference, maximum and minimum.

  At the ideal values (extended reals, exact operations) the two agree entry by entry. A matrix product into a zero
  accumulator is the plain sum of products, as is the contraction; and the only law that joins the two sides is that a sum
  of 8192 extended reals is the running total, started at zero, of its eight consecutive blocks of 1024 — commutativity and
  associativity of addition, which hold of the extended reals without exception. No finiteness of the inputs is used: both
  programs perform the same addition of the constant input, subtraction of the threshold and clamp on the same total.

  The modules: Spec (the neuron's output and the law of the running total), Layer (the output array over the four
  arguments), Payloads (the values the body stores, entry by entry), Pieces (what each kind of pass leaves in the tile),
  Tiles (which entries of the arrays a pass sees), Accumulate (the tile after each point of the grid, by induction),
  Region (the array the grid leaves), KernelRun (the tiled program's result is the layer), Reference (the plain program's
  result is the layer).

  The three programs run, fault-free, leaving their arguments unchanged: for the two tiled programs this is the generated
  frame; for the plain program it is its generated run with the result dropped. The idealized tiled program is the tiled
  program's own text read at the ideal values: nothing was rewritten, and that conjunct is trivial.
-/
import proofs.«146511_j43035572306630_2_alg».proof.Defs
import proofs.«146511_j43035572306630_2_alg».proof.Proof.Gen.Kernel
import proofs.«146511_j43035572306630_2_alg».proof.Proof.Gen.Kernel.Skeleton
import proofs.«146511_j43035572306630_2_alg».proof.Proof.Gen.Kernel.Launch
import proofs.«146511_j43035572306630_2_alg».proof.Proof.Gen.Kernel.Points
import proofs.«146511_j43035572306630_2_alg».proof.Proof.Gen.Kernel.Frame
import proofs.«146511_j43035572306630_2_alg».proof.Proof.Gen.KernelIdeal
import proofs.«146511_j43035572306630_2_alg».proof.Proof.Gen.KernelIdeal.Skeleton
import proofs.«146511_j43035572306630_2_alg».proof.Proof.Gen.KernelIdeal.Launch
import proofs.«146511_j43035572306630_2_alg».proof.Proof.Gen.KernelIdeal.Points
import proofs.«146511_j43035572306630_2_alg».proof.Proof.Gen.KernelIdeal.Frame
import proofs.«146511_j43035572306630_2_alg».proof.Proof.Gen.ReferenceIdeal
import proofs.«146511_j43035572306630_2_alg».proof.Proof.Gen.ReferenceIdeal.Run
import proofs.«146511_j43035572306630_2_alg».proof.Proof.Gen.ReferenceIdeal.Read
import proofs.«146511_j43035572306630_2_alg».proof.Proof.Gen.Pre_finite_inputs
import proofs.«146511_j43035572306630_2_alg».proof.Proof.KernelRun
import proofs.«146511_j43035572306630_2_alg».proof.Proof.Reference
import Idealize.ShloMosaic.Adequacy
import Idealize.ShloMosaic.Init

noncomputable section

namespace Cert.Proof

open Idealize.ShloMosaic Idealize.SL.Sem

/-- The tiled program runs and keeps its arguments. -/
theorem frame_tiled : Cert.frame_Kernel := fun m ρ _ => Cert.Kernel.Gen.frame m ρ

/-- So does its reading at the ideal values. -/
theorem frame_tiled_ideal : Cert.frame_KernelIdeal := fun m ρ _ => Cert.KernelIdeal.Gen.frame m ρ

/-- The plain program runs and keeps its arguments: its run, with the result forgotten. -/
theorem frame_plain : Cert.frame_ReferenceIdeal := fun m ρ _ =>
  (θ_run Cert.ReferenceIdeal.defs _ _).mono (fun _ h c => (h c).2) (Cert.ReferenceIdeal.Value.run (F := Ideal) m ρ)

/-- Nothing was rewritten on the way to the ideal reading. -/
theorem preserves : Cert.preserves_Kernel_KernelIdeal := trivial

/-- At the ideal values the tiled program's result is the layer of its arguments, the plain program's result is the layer
    of its arguments, and the arguments agree. -/
theorem algebraic : Cert.algebraic_KernelIdeal_ReferenceIdeal := by
  intro m ρ m' ρ' _ hagree
  refine ⟨fun c => Cert.SpikeLayer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.SpikeLayer.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.SpikeLayer.Ref.reference_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_tiled, frame_tiled_ideal, frame_plain, preserves, algebraic⟩

end Cert.Proof

end
